-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S128x128 : Shape := ⟨2, ![128, 128]⟩
abbrev S128 : Shape := ⟨1, ![128]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S1048576x128 .f32) (main_arg1 : FVec F S128x128 .f32) (main_arg2 : FVec F S128x128 .f32) (main_arg3 : FVec F S128 .f32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S1048576x128 : Shape := ⟨2, ![1048576, 128]⟩
abbrev S128x128 : Shape := ⟨2, ![128, 128]⟩
abbrev S128 : Shape := ⟨1, ![128]⟩
abbrev S1x128 : Shape := ⟨2, ![1, 128]⟩
abbrev S16384x128 : Shape := ⟨2, ![16384, 128]⟩

abbrev nBuf : Space → Nat
  | .hbm => 8
  | .vmem => 6
  | .smem => 0
  | _ => 0

abbrev bufTy : (tb : Table) → Fin (tcTables nBuf tb) → BufTy
  | .hbm, ⟨0, _⟩ => ⟨S1048576x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S1x128, .f32⟩
  | .hbm, ⟨7, _⟩ => ⟨S1048576x128, .f32⟩
  | .local _ .vmem, ⟨0, _⟩ => ⟨S16384x128, .f32⟩
  | .local _ .vmem, ⟨1, _⟩ => ⟨S16384x128, .f32⟩
  | .local _ .vmem, ⟨2, _⟩ => ⟨S128x128, .f32⟩
  | .local _ .vmem, ⟨3, _⟩ => ⟨S1x128, .f32⟩
  | .local _ .vmem, ⟨4, _⟩ => ⟨S16384x128, .f32⟩
  | .local _ .vmem, ⟨5, _⟩ => ⟨S16384x128, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x128_S128x128_1_0 : S128x128.Transposes [1, 0] S128x128
  shapeCasts_S128_S1x128 : S128.ShapeCasts S1x128
  inb_S16384x128_S16384x128_0_0 : ∀ a, (![0, 0] : Fin 2 → Nat) a + S16384x128.size a ≤ S16384x128.size a
  h_S16384x128 : 0 < S16384x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16384x128 : S1x128.Broadcasts S16384x128
  dot_S16384x128_S128x128_S16384x128_1_0_0_1_n_n_wf : DotDims.WF S16384x128 S128x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S1048576x128.size a
  hwx0_0 : ∀ i : grid0.Coords, EltTy.bits .f32 = 32 ∨ (Rect.block (s := S1048576x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x128.size a ≤ S1048576x128.size a
  hwx0_3 : ∀ i : grid0.Coords, EltTy.bits .f32 = 32 ∨ (Rect.block (s := S1048576x128) S16384x128.size (cc0_transform_3 i) (hinb0_3 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

abbrev win0_0 : Pipeline.Window sig grid0 :=
  Pipeline.Window.ofSpec (Memref.whole main_arg0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16384x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x128 : Shape := ⟨2, ![1048576, 128]⟩
abbrev S128x128 : Shape := ⟨2, ![128, 128]⟩
abbrev S128 : Shape := ⟨1, ![128]⟩
abbrev S1x128 : Shape := ⟨2, ![1, 128]⟩

abbrev nBuf : Space → Nat
  | .hbm => 9
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1048576x128, .f32⟩
  | .hbm, ⟨6, _⟩ => ⟨S1x128, .f32⟩
  | .hbm, ⟨7, _⟩ => ⟨S1048576x128, .f32⟩
  | .hbm, ⟨8, _⟩ => ⟨S1048576x128, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  dot_S1048576x128_S128x128_S1048576x128_1_1_0_0_n_n_wf : DotDims.WF S1048576x128 S128x128 S1048576x128 [1] [1] [0] [0] [] []

variable [Facts₀]

def dot_S1048576x128_S128x128_S1048576x128_1_1_0_0_n_n : DotDims S1048576x128 S128x128 S1048576x128 where
  lhsContracting := [1]
  rhsContracting := [1]
  lhsNonContracting := [0]
  rhsNonContracting := [0]
  lhsBatch := []
  rhsBatch := []
  wf := dot_S1048576x128_S128x128_S1048576x128_1_1_0_0_n_n_wf

class Facts : Prop extends Facts₀ where

variable [Facts]
-- ==== Proof.Spec.lean ====
/-
  The masked linear layer, as one function of its four arrays.

  For a batch `x` of 1048576 rows of 128 features, a 128×128 weight `w` (one row per OUTPUT feature), a mask `mk` of
  the weight's shape and a bias `b` of 128 entries, the layer's output at row `n` and output feature `o` is

      y[n, o] = (∑ k, x[n, k] · (w[o, k] · mk[o, k])) + b[o]

  over the extended reals: the weight is masked entry by entry first, then contracted with the row along the INPUT
  feature `k`, then the bias of the output feature is added. Nothing here needs the entries to be finite: the two
  programs this is set between compute this very expression, the products and the sum in this very order, so no
  law of arithmetic beyond `0 + s = s` is used anywhere.
-/
import Idealize.ShloMosaic.PureOps.Ideal
import Idealize.ShloMosaic.Lib.ValueIdx

noncomputable section

namespace Cert.MaskedLinear

open Idealize.ShloMosaic Idealize.ShloMosaic.ValueIdx

/-- The output entry at row `n`, output feature `o`: the row's contraction with the masked weight row `o`, plus
    the bias of `o`. -/
def entry (x : (⟨2, ![1048576, 128]⟩ : Shape).Idx → EReal) (w mk : (⟨2, ![128, 128]⟩ : Shape).Idx → EReal)
    (b : (⟨1, ![128]⟩ : Shape).Idx → EReal) (n : Fin 1048576) (o : Fin 128) : EReal :=
  (∑ k : Fin 128, x (ix2 n k) * (w (ix2 o k) * mk (ix2 o k))) + b (ix1 o)

/-- The whole output array: `entry` at the index's two coordinates. -/
def layer (x : (⟨2, ![1048576, 128]⟩ : Shape).Idx → EReal) (w mk : (⟨2, ![128, 128]⟩ : Shape).Idx → EReal)
    (b : (⟨1, ![128]⟩ : Shape).Idx → EReal) : (⟨2, ![1048576, 128]⟩ : Shape).Idx → EReal :=
  fun i => entry x w mk b (i 0) (i 1)

/-- The array read at coordinates. -/
theorem layer_ix2 (x : (⟨2, ![1048576, 128]⟩ : Shape).Idx → EReal) (w mk : (⟨2, ![128, 128]⟩ : Shape).Idx → EReal)
    (b : (⟨1, ![128]⟩ : Shape).Idx → EReal) (n : Fin 1048576) (o : Fin 128) :
    layer x w mk b (ix2 n o) = entry x w mk b n o := rfl

end Cert.MaskedLinear

end
-- ==== Proof.RefValue.lean ====
/-
  The reference computes the masked linear layer.

  The reference multiplies the weight by the mask entry by entry, contracts the batch with the product along the
  second axis of both (`x[n, k]` against `(w · mk)[o, k]`), broadcasts the bias along the rows and adds. Read at the
  index `(n, o)` — each of its five operations read at an index — that is the specification's `entry` at `n`, `o`,
  term for term.
-/
import proofs.«172862_j35175782154586_2_alg».proof.Proof.Gen.ReferenceIdeal.Read
import proofs.«172862_j35175782154586_2_alg».proof.Proof.Spec

noncomputable section

namespace Cert.ReferenceIdeal.RefValue

open Cert.ReferenceIdeal Cert.ReferenceIdeal.Read Idealize.ShloMosaic Idealize.ShloMosaic.ValueIdx

/-- The left operand of the contraction at output `(n, o)`, summand `k`, is the batch at `(n, k)`. -/
theorem lidx_eq (n : Fin 1048576) (o k : Fin 128) : lidx_main_v1 (ix2 n o) k = ix2 n k :=
  funext fun a => Fin.ext (by match a with | ⟨0, _⟩ => rfl | ⟨1, _⟩ => rfl)

/-- The right operand there is the masked weight at `(o, k)`: row `o` is the OUTPUT feature. -/
theorem ridx_eq (n : Fin 1048576) (o k : Fin 128) : ridx_main_v1 (ix2 n o) k = ix2 o k :=
  funext fun a => Fin.ext (by match a with | ⟨0, _⟩ => rfl | ⟨1, _⟩ => rfl)

/-- The bias, broadcast to a row and then to every row, is read at the output feature. -/
theorem bidx_eq (n : Fin 1048576) (o : Fin 128) : idx_main_v2 (idx_main_v3 (ix2 n o)) = ix1 o :=
  funext fun a => Fin.ext (by match a with | ⟨0, _⟩ => rfl)

/-- THE REFERENCE'S RESULT, as a function of the four arrays, is the masked linear layer. -/
theorem result_eq_layer (x0 : (⟨S1048576x128, .f32⟩ : BufTy).Contents (Elt Ideal))
    (x1 x2 : (⟨S128x128, .f32⟩ : BufTy).Contents (Elt Ideal)) (x3 : (⟨S128, .f32⟩ : BufTy).Contents (Elt Ideal)) :
    val_main_v4 (F := Ideal) x0 x1 x2 x3 = Cert.MaskedLinear.layer x0 x1 x2 x3 := by
  funext i
  obtain ⟨n, o, rfl⟩ : ∃ (n : Fin 1048576) (o : Fin 128), i = ix2 n o := ⟨i 0, i 1, eq_ix2 i⟩
  rw [val_main_v4_apply, val_main_v1_apply, val_main_v3_apply, val_main_v2_apply, bidx_eq]
  simp only [lidx_eq, ridx_eq, val_main_v0_apply]
  rfl

end Cert.ReferenceIdeal.RefValue

end
-- ==== Proof.LibPlainDot.lean ====
/-
  A plain matrix product read at coordinates.

  For the dimension numbers of an `M×K` by `K×N` product (contract the left operand's second axis with the right
  operand's first, no batch axes), the contraction's sum at the output entry `(r, c)` is the textbook
  `∑ k, lhs (r, k) * rhs (k, c)`: the one-axis contraction index is re-indexed by its coordinate.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The dimension numbers `<[1], [0], [0], [1]>` of an `M×K` by `K×N` product, at any witness of their conditions. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's index at output `(r, c)` and contraction index `q` is `(r, q)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction index `q` is `(q, c)`. -/
theorem rhsIdx_eq (r : Fin M) (c : Fin N) (k : Fin K) :
    (dims M K N wf).rhsIdx (ix2 r c) ((contrEquiv1 (dims M K N wf) K rfl rfl).symm k) = ix2 k c := by
  have hk := contrEquiv1_symm_val (dims M K N wf) K rfl rfl k
  funext a
  refine Fin.ext ?_
  match a with
  | ⟨0, _⟩ =>
    exact ((dims M K N wf).rhsIdx_val_of_single rfl (ix2 r c) _).trans hk
  | ⟨1, _⟩ =>
    show ((dims M K N wf).rhsIdx (ix2 r c) _ 1).val = c.val
    unfold DotDims.rhsIdx
    rw [dif_neg (show ¬(1 : Fin 2) ∈ (dims M K N wf).rhsBatch from List.not_mem_nil),
      dif_pos (show (1 : Fin 2) ∈ (dims M K N wf).rhsNonContracting from List.mem_singleton.mpr rfl)]
    rfl

/-- THE CONTRACTION at `(r, c)`: the sum over `k` of `lhs (r, k) * rhs (k, c)`. -/
theorem contraction_apply (lhs : (⟨2, ![M, K]⟩ : Shape).Idx → EReal) (rhs : (⟨2, ![K, N]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 k c) := by
  rw [← Equiv.sum_comp (contrEquiv1 (dims M K N wf) K rfl rfl).symm]
  refine Finset.sum_congr rfl fun k _ => ?_
  rw [lhsIdx_eq wf r c k, rhsIdx_eq wf r c k]

/-- A matrix-unit product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 k c) := by
  rw [Ideal.matmul_constant_zero_apply]
  exact contraction_apply wf lhs rhs r c

/-- The host's product, at the exact-real instance, read at `(r, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (dims M K N wf) prec sched lhs rhs (ix2 r c)
      = ∑ k : Fin K, lhs (ix2 r k) * rhs (ix2 k c) := by
  rw [Ideal.dotGeneral_apply]
  exact contraction_apply wf lhs rhs r c

end Idealize.ShloMosaic.PlainDot

end
-- ==== Proof.Payload.lean ====
/-
  What the kernel's body stores, read at an entry of the block.

  At a grid point the body holds a block of 16384 rows of the batch, the whole 128×128 matrix of its second
  operand and a single row of 128 numbers. It multiplies the block by the matrix on the matrix unit into a zero
  accumulator — contracting the block's second axis with the matrix's FIRST — and adds the row to every row of the
  product. So the stored value at `(p, q)` is `(∑ k, block[p, k] · matrix[k, q]) + row[0, q]`: the zero accumulator
  drops out, and the two re-shapings to the same shape are identities.
-/
import proofs.«172862_j35175782154586_2_alg».proof.Proof.Gen.KernelIdeal.Skeleton
import proofs.«172862_j35175782154586_2_alg».proof.Proof.LibPlainDot
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx

/-- THE STORED VALUE at row `p`, column `q` of the block: the row of the batch block against column `q` of the
    matrix, plus the entry `q` of the one row. -/
theorem stored_apply (v0 : Vec Ideal S16384x128 .f32) (v1 : Vec Ideal S128x128 .f32) (v4 : Vec Ideal S1x128 .f32)
    (p : Fin 16384) (q : Fin 128) :
    k0_pay1 (F := Ideal) v0 v1 v4 (ix2 p q)
      = (∑ k : Fin 128, v0 (ix2 p k) * v1 (ix2 k q)) + v4 (ix2 (0 : Fin 1) q) := by
  unfold k0_pay1
  rw [shapeCast_self, shapeCast_self]
  refine congrArg₂ (· + ·) ?_ ?_
  · exact PlainDot.matmul_zero_apply _ (some .fp32) v0 v1 p q
  · exact broadcastTo_1b_ab_apply v4 _ p q

end Cert.KernelIdeal.Body

end
-- ==== Proof.Windows.lean ====
/-
  What the kernel's four windows hold at a grid point, in terms of the four argument arrays.

  The grid has 64 points; point `t` works on rows `16384·t … 16384·t + 16383` of the batch and of the output, and
  on the WHOLE of its two other operands, which are not arguments but arrays the program computes first:
    * the matrix is the TRANSPOSE of the entrywise product of weight and mask, so its entry `(k, o)` is
      `w[o, k] · mk[o, k]` — the input feature `k` has become the row;
    * the single row is the bias viewed as a 1×128 array, so its entry `(0, o)` is `b[o]`.
  The block indices are decided once over the 64 points; a block's coordinate in its array is always
  block index × block size + the coordinate inside the block.
-/
import proofs.«172862_j35175782154586_2_alg».proof.Proof.Gen.KernelIdeal.Frame
import Idealize.ShloMosaic.Lib.StableHlo.Run
import Idealize.ShloMosaic.Lib.Pipeline.Value
import Idealize.ShloMosaic.Lib.ValueLayout

noncomputable section

namespace Cert.KernelIdeal.Windows

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The arrays, named -/

/-- The four argument arrays on core `c`, as launched: the batch, the weight, the mask, the bias. -/
abbrev batch (c : Dev nD) : FVec Ideal S1048576x128 .f32 := m ((c : Thread nD τ).loc main_arg0)
abbrev weight (c : Dev nD) : FVec Ideal S128x128 .f32 := m ((c : Thread nD τ).loc main_arg1)
abbrev mask (c : Dev nD) : FVec Ideal S128x128 .f32 := m ((c : Thread nD τ).loc main_arg2)
abbrev bias (c : Dev nD) : FVec Ideal S128 .f32 := m ((c : Thread nD τ).loc main_arg3)

/-- The two arrays the region finds that the program computed before it: the matrix and the single row. -/
abbrev matrixV (c : Dev nD) : FVec Ideal S128x128 .f32 := V m c main_v1
abbrev rowV (c : Dev nD) : FVec Ideal S1x128 .f32 := V m c main_v2

/-! ## The two arrays the program computes before the region -/

/-- The matrix the region finds: the transpose of weight × mask (entrywise). -/
theorem matrix_array (c : Dev nD) :
    matrixV m c = transpose S128x128 [1, 0] (mulf (weight m c) (mask m c)) transposes_S128x128_S128x128_1_0 := by
  dsimp only [matrixV, Gen.V, Gen.hostOps0]; after_results

/-- Its entry `(k, o)` is the masked weight of output feature `o` at input feature `k`. -/
theorem matrix_array_apply (c : Dev nD) (k o : Fin 128) :
    matrixV m c (ix2 k o) = weight m c (ix2 o k) * mask m c (ix2 o k) :=
  (congrFun (matrix_array m c) (ix2 k o)).trans (transpose_ix2_apply _ _ k o)

/-- The single row the region finds: the bias, viewed as 1×128. -/
theorem row_array (c : Dev nD) : rowV m c = shapeCast S1x128 (bias m c) shapeCasts_S128_S1x128 := by
  dsimp only [rowV, Gen.V, Gen.hostOps0]; after_results; rfl

/-- Its entry `(0, o)` is the bias of output feature `o`. -/
theorem row_array_apply (c : Dev nD) (o : Fin 128) : rowV m c (ix2 (0 : Fin 1) o) = bias m c (ix1 o) :=
  (congrFun (row_array m c) (ix2 (0 : Fin 1) o)).trans (shapeCast_a_1a_apply _ _ 0 o)

/-! ## The block indices, over the 64 points -/

/-- Batch and output move down one block of rows per point; the matrix and the row never move. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A point is one of 64. -/
theorem point_lt (t : Fin cfg0.N) : t.val < 64 := lt_of_lt_of_eq t.isLt N_0

/-- The row of the batch (and of the output) that row `p` of point `t`'s block is. -/
def rowOf (t : Fin cfg0.N) (p : Fin 16384) : Fin 1048576 :=
  ⟨t.val * 16384 + p.val, by have := point_lt t; have := p.isLt; omega⟩

/-! ## Each window's block at a point -/

/-- The batch block at point `t`, row `p`, is row `16384·t + p` of the batch. -/
theorem batch_block (c : Dev nD) (t : Fin cfg0.N) (p : Fin 16384) (k : Fin 128) :
    iblk m c 0 t (ix2 p k) = batch m c (ix2 (rowOf t p) k) := by
  show V m c main_arg0 (((cfg0.win 0).blk t).view.emb (ix2 p k)) = _
  rw [V_main_arg0]
  show batch m c _ = _
  refine congrArg _ (funext fun a => Fin.ext ?_)
  obtain ⟨e0, e1, -⟩ := block_indices t
  match a with
  | ⟨0, _⟩ => show win0_0.index t (0 : Fin 2) * 16384 + 1 * p.val = t.val * 16384 + p.val; omega
  | ⟨1, _⟩ => show win0_0.index t (1 : Fin 2) * 128 + 1 * k.val = k.val; omega

/-- The matrix block at every point is the whole matrix: entry `(k, o)` is `w[o, k] · mk[o, k]`. -/
theorem matrix_block (c : Dev nD) (t : Fin cfg0.N) (k o : Fin 128) :
    iblk m c 1 t (ix2 k o) = weight m c (ix2 o k) * mask m c (ix2 o k) := by
  show matrixV m c (((cfg0.win 1).blk t).view.emb (ix2 k o)) = _
  have e : ((cfg0.win 1).blk t).view.emb (ix2 k o) = ix2 k o := funext fun a => Fin.ext (by
    obtain ⟨-, -, e2, e3, -⟩ := block_indices t
    match a with
    | ⟨0, _⟩ => show win0_1.index t (0 : Fin 2) * 128 + 1 * k.val = k.val; omega
    | ⟨1, _⟩ => show win0_1.index t (1 : Fin 2) * 128 + 1 * o.val = o.val; omega)
  rw [e]
  exact matrix_array_apply m c k o

/-- The row block at every point is the whole row: entry `(0, o)` is `b[o]`. -/
theorem row_block (c : Dev nD) (t : Fin cfg0.N) (o : Fin 128) :
    iblk m c 2 t (ix2 (0 : Fin 1) o) = bias m c (ix1 o) := by
  show rowV m c (((cfg0.win 2).blk t).view.emb (ix2 (0 : Fin 1) o)) = _
  have e : ((cfg0.win 2).blk t).view.emb (ix2 (0 : Fin 1) o) = ix2 (0 : Fin 1) o := funext fun a => Fin.ext (by
    obtain ⟨-, -, -, -, e4, e5, -⟩ := block_indices t
    match a with
    | ⟨0, _⟩ => show win0_2.index t (0 : Fin 2) * 1 + 1 * (0 : Fin 1).val = (0 : Fin 1).val; omega
    | ⟨1, _⟩ => show win0_2.index t (1 : Fin 2) * 128 + 1 * o.val = o.val; omega)
  rw [e]
  exact row_array_apply m c o

/-- Entry `(p, q)` of the output block at point `t` sits at row `16384·t + p`, column `q` of the output. -/
theorem out_block_index (t : Fin cfg0.N) (p : Fin 16384) (q : Fin 128) :
    ((cfg0.win 3).blk t).view.emb (ix2 p q) = ix2 (rowOf t p) q := funext fun a => Fin.ext (by
  obtain ⟨-, -, -, -, -, -, e6, e7⟩ := block_indices t
  match a with
  | ⟨0, _⟩ => show win0_3.index t (0 : Fin 2) * 16384 + 1 * p.val = t.val * 16384 + p.val; omega
  | ⟨1, _⟩ => show win0_3.index t (1 : Fin 2) * 128 + 1 * q.val = q.val; omega)

end Cert.KernelIdeal.Windows

end
-- ==== Proof.Whole.lean ====
/-
  The kernel's output array, whole.

  Grid point `t` writes back what its body stored: at `(p, q)` of the block, the batch block's row `p` against
  column `q` of the matrix, plus the row's entry `q`. With the windows read through to the arguments — the batch
  block is rows `16384·t + p` of the batch, the matrix is the transposed masked weight, the row is the bias — that
  is the masked linear layer's entry at row `16384·t + p`, output feature `q`: point `t` writes block `t` of
  the layer. The 64 blocks cover the 1048576 rows (row `r` is in block `r / 16384`), so after the run the output
  array IS the layer of the four arguments.
-/
import proofs.«172862_j35175782154586_2_alg».proof.Proof.Gen.KernelIdeal.Value
import proofs.«172862_j35175782154586_2_alg».proof.Proof.Spec
import proofs.«172862_j35175782154586_2_alg».proof.Proof.Payload
import proofs.«172862_j35175782154586_2_alg».proof.Proof.Windows

noncomputable section

namespace Cert.KernelIdeal.Whole

open Cert.KernelIdeal Cert.KernelIdeal.Gen Idealize.ShloMosaic Idealize.ShloMosaic.TcCoe Idealize.SL.Sem
open Idealize.ShloMosaic.ValueIdx
open Cert.KernelIdeal.Windows

variable (m : (ℓ : Loc nD τ sig) → Buf (Elt Ideal) ℓ) (ρ : Dev nD → PrngReg)

/-- The layer of core `c`'s four argument arrays as launched. -/
abbrev layerOf (c : Dev nD) : FVec Ideal S1048576x128 .f32 :=
  Cert.MaskedLinear.layer (batch m c) (weight m c) (mask m c) (bias m c)

/-- Every load and the store of the body start at the origin of their buffers. -/
theorem origin : (![0, 0] : Fin 2 → Nat) = fun _ => 0 := funext fun a => by fin_cases a <;> rfl

/-- WHAT POINT `t` WRITES BACK is block `t` of the layer. -/
theorem flushed_eq (c : Dev nD) (t : Fin cfg0.N) :
    (dats m 0 c).flushed 3 t = ((cfg0.win 3).blk t).view.read (Elt Ideal) (layerOf m c) := by
  show (cfg0.win 3).cut (grid0.coords t) ((dats m 0 c).after 3 t) = _
  rw [after0_3]
  unfold out0_3
  rw [View.canon_unit_zero origin]
  simp only [View.ld_unit_zero (S := S16384x128) origin, View.ld_unit_zero (S := S128x128) origin,
    View.ld_unit_zero (S := S1x128) origin]
  funext j
  obtain ⟨p, q, rfl⟩ : ∃ (p : Fin 16384) (q : Fin 128), j = ix2 p q := ⟨j 0, j 1, eq_ix2 j⟩
  show k0_pay1 (iblk m c 0 t) (iblk m c 1 t) (iblk m c 2 t) (ix2 p q)
    = layerOf m c (((cfg0.win 3).blk t).view.emb (ix2 p q))
  rw [out_block_index]
  refine (Body.stored_apply (iblk m c 0 t) (iblk m c 1 t) (iblk m c 2 t) p q).trans ?_
  show _ = Cert.MaskedLinear.entry (batch m c) (weight m c) (mask m c) (bias m c) (rowOf t p) q
  unfold Cert.MaskedLinear.entry
  exact congrArg₂ (· + ·)
    (Finset.sum_congr rfl fun k _ => congrArg₂ (· * ·) (batch_block m c t p k) (matrix_block m c t k q))
    (row_block m c t q)

/-- An index of the output is in point `t`'s block iff each coordinate is in the block's range on its axis. -/
theorem mem_blk (t : Fin cfg0.N) (i : S1048576x128.Idx) :
    i ∈ ((cfg0.win 3).blk t).view.set ↔ ∀ a : Fin 2, win0_3.index t a * S16384x128.size a ≤ (i a).val
      ∧ (i a).val < win0_3.index t a * S16384x128.size a + S16384x128.size a := by
  show i ∈ ((View.whole main_v3).slice (win0_3.rect t)).set ↔ _
  rw [View.set_slice_whole, Rect.mem_set_unit]
  exact Iff.rfl

/-- THE BLOCKS COVER THE OUTPUT: row `r` is in the block of point `r / 16384`. -/
theorem cover (i : S1048576x128.Idx) :
    ∃ t : Fin cfg0.N, (cfg0.win 3).flush t = true ∧ i ∈ ((cfg0.win 3).blk t).view.set := by
  have hi0 : (i 0).val < 1048576 := (i 0).isLt
  have hi1 : (i 1).val < 128 := (i 1).isLt
  obtain ⟨t, ht⟩ : ∃ t : Fin cfg0.N, t.val = (i 0).val / 16384 :=
    ⟨⟨(i 0).val / 16384, lt_of_lt_of_eq (by omega : (i 0).val / 16384 < 64) N_0.symm⟩, rfl⟩
  refine ⟨t, flush0_3 t, ?_⟩
  rw [mem_blk]
  obtain ⟨-, -, -, -, -, -, e6, e7⟩ := block_indices t
  intro a
  match a with
  | ⟨0, _⟩ =>
    show win0_3.index t (0 : Fin 2) * 16384 ≤ (i 0).val ∧ (i 0).val < win0_3.index t (0 : Fin 2) * 16384 + 16384
    omega
  | ⟨1, _⟩ =>
    show win0_3.index t (1 : Fin 2) * 128 ≤ (i 1).val ∧ (i 1).val < win0_3.index t (1 : Fin 2) * 128 + 128
    omega

/-- THE OUTPUT ARRAY after the run is the layer of the arguments. -/
theorem final (c : Dev nD) : (dats m 0 c).arrAt 3 cfg0.N = layerOf m c :=
  (dats m 0 c).arrAt_eq_of_cover 3 (layerOf m c) (fun t _ => flushed_eq m c t) cover

/-- THE KERNEL'S RUN: every weakly fair execution terminates with the result array at the layer of the four arguments
    as launched, and the arguments unchanged. -/
theorem run : θ_run defs (onTc (τ := τ) (main (F := Ideal))) ⟨m, fun _ => 0, ρ⟩ fun r => ∀ c : Dev nD,
      r.2.mem ((c : Thread nD τ).loc main_v3) = layerOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.lean ====
/-
  A masked linear layer on the matrix unit, against its textbook form.

  The kernel computes, for a batch `x` of 1048576 rows of 128 features, a 128×128 weight `w`, a mask `mk` of the
  weight's shape and a bias `b`,

      y[n, o] = (∑ k, x[n, k] · (w[o, k] · mk[o, k])) + b[o].

  It first forms the transposed masked weight `(w · mk)ᵀ` and views the bias as a 1×128 row; then, 16384 rows of
  the batch at a time over a grid of 64 points, it multiplies the row block by that matrix into a zero accumulator
  and adds the row. The reference forms `w · mk`, contracts the batch with it along the second axis of both, and
  adds the bias broadcast over the rows.

  Read at the exact extended reals both are the expression above, the same products summed in the same order: the
  transpose only renames which axis of the masked weight is contracted, the zero accumulator drops out
  (`0 + s = s`), and re-shapings and broadcasts move no value. No law that could fail at an infinity is used, so
  the finiteness of the inputs is never opened.

  Proof/Spec.lean states the layer; Proof/RefValue.lean reads the reference's five operations at an index;
  Proof/Payload.lean reads what the body stores at an entry of its block; Proof/Windows.lean reads the four
  windows' blocks through to the arguments; Proof/Whole.lean puts the 64 blocks together into the output array.
  The three programs' terminating, fault-free runs that leave the arguments unchanged are the generated frames (the
  reference's is its generated run with the result forgotten); the kernel's idealization rewrote no operation, so
  there is nothing to preserve.
-/
import proofs.«172862_j35175782154586_2_alg».proof.Defs
import proofs.«172862_j35175782154586_2_alg».proof.Proof.Gen.Kernel
import proofs.«172862_j35175782154586_2_alg».proof.Proof.Gen.Kernel.Frame
import proofs.«172862_j35175782154586_2_alg».proof.Proof.Gen.KernelIdeal
import proofs.«172862_j35175782154586_2_alg».proof.Proof.Gen.KernelIdeal.Frame
import proofs.«172862_j35175782154586_2_alg».proof.Proof.Gen.KernelIdeal.Value
import proofs.«172862_j35175782154586_2_alg».proof.Proof.Gen.ReferenceIdeal
import proofs.«172862_j35175782154586_2_alg».proof.Proof.Gen.ReferenceIdeal.Run
import proofs.«172862_j35175782154586_2_alg».proof.Proof.Gen.ReferenceIdeal.Read
import proofs.«172862_j35175782154586_2_alg».proof.Proof.Gen.Pre_finite_inputs
import proofs.«172862_j35175782154586_2_alg».proof.Proof.RefValue
import proofs.«172862_j35175782154586_2_alg».proof.Proof.Whole
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run, with what it computes forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments, the kernel's result array and the reference's both end at the
    masked linear layer of those arguments. -/
theorem algebraic : Cert.algebraic_KernelIdeal_ReferenceIdeal := by
  intro m ρ m' ρ' _ hagree
  refine ⟨fun c => Cert.KernelIdeal.Whole.layerOf m c, Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.RefValue.result_eq_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
